-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S1x64 : Shape := ⟨2, ![1, 64]⟩
abbrev S1x32 : Shape := ⟨2, ![1, 32]⟩
abbrev S1x2 : Shape := ⟨2, ![1, 2]⟩
abbrev S100000x2 : Shape := ⟨2, ![100000, 2]⟩
abbrev S5000x2 : Shape := ⟨2, ![5000, 2]⟩
abbrev S5000x32 : Shape := ⟨2, ![5000, 32]⟩

abbrev nBuf : Space → Nat
  | .hbm => 103
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S1x32, .f32⟩
  | .hbm, ⟨87, _⟩ => ⟨S1x2, .f32⟩
  | .hbm, ⟨88, _⟩ => ⟨S100000x2, .f32⟩
  | .hbm, ⟨89, _⟩ => ⟨S_, .f32⟩
  | .hbm, ⟨90, _⟩ => ⟨S2, .f32⟩
  | .hbm, ⟨91, _⟩ => ⟨S_, .f32⟩
  | .hbm, ⟨92, _⟩ => ⟨S2, .f32⟩
  | .hbm, ⟨93, _⟩ => ⟨S2, .f32⟩
  | .hbm, ⟨94, _⟩ => ⟨S1x2, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S2, .f32⟩
  | .hbm, ⟨100, _⟩ => ⟨S1x2, .f32⟩
  | .hbm, ⟨101, _⟩ => ⟨S100000x2, .f32⟩
  | .hbm, ⟨102, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S2_S1x2 : S2.ShapeCasts S1x2
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  reducesTo_S100000x2_S2_d0 : S100000x2.ReducesTo [0] S2
  h_S_ : 0 < S_.numel
  bcast_S_S2 : S_.BroadcastsInDim S2 (![] : Fin 0 → Fin S2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x2.size a ≤ S32x2.size a
  hwx2_4 : ∀ i : grid2.Coords, EltTy.bits .f32 = 32 ∨ (Rect.block (s := S32x2) S32x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x2.size a ≤ S100000x2.size a
  hwx2_6 : ∀ i : grid2.Coords, EltTy.bits .f32 = 32 ∨ (Rect.block (s := S100000x2) S5000x2.size (cc2_transform_6 i) (hinb2_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S32x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S5000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x2, .f32⟩
  | 9 => ⟨S2, .f32⟩
  | 10 => ⟨S1x3200000, .i32⟩
  | 11 => ⟨S3200000, .i32⟩
  | 12 => ⟨S1x3200000, .i32⟩
  | 13 => ⟨S3200000, .i32⟩
  | 14 => ⟨S100000x64, .f32⟩
  | 15 => ⟨S100000, .i32⟩
  | 16 => ⟨S3300000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x64, .f32⟩
  | 60 => ⟨S3300000x1, .f32⟩
  | 61 => ⟨S3300000x64, .f32⟩
  | 62 => ⟨S3300000x64, .f32⟩
  | 63 => ⟨S_, .f32⟩
  | 64 => ⟨S100000x64, .f32⟩
  | 65 => ⟨S3300000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S100000x32, .f32⟩
  | 2 => ⟨S1x32, .f32⟩
  | 3 => ⟨S100000x32, .f32⟩
  | 4 => ⟨S100000x32, .f32⟩
  | 5 => ⟨S100000x2, .f32⟩
  | 6 => ⟨S1x2, .f32⟩
  | 7 => ⟨S100000x2, .f32⟩
  | 8 => ⟨S100000x2, .f32⟩
  | 9 => ⟨S_, .f32⟩
  | 10 => ⟨S2, .f32⟩
  | 11 => ⟨S_, .f32⟩
  | 12 => ⟨S2, .f32⟩
  | 13 => ⟨S2, .f32⟩
  | 14 => ⟨S1x2, .f32⟩
  | 15 => ⟨S100000x2, .f32⟩
  | 16 => ⟨S100000x2, .f32⟩
  | 17 => ⟨S100000x2, .f32⟩
  | 18 => ⟨S_, .f32⟩
  | 19 => ⟨S2, .f32⟩
  | 20 => ⟨S1x2, .f32⟩
  | 21 => ⟨S100000x2, .f32⟩
  | 22 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S2_d0 : S100000x2.ReducesTo [0] S2
  h_S_ : 0 < S_.numel
  bcast_S_S2 : S_.BroadcastsInDim S2 (![] : Fin 0 → Fin S2.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x2_S100000x2_1_0_0_1_n_n_wf : DotDims.WF S100000x32 S32x2 S100000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.KernelRun.lean ====
/-
  The idealized kernel's run with its result named.

  @main is nine segments: stretches of host operations around three tiled matrix kernels. The contents of the core's
  buffers at each boundary between segments are a fold from the launch memory: after a host stretch, the stretch's
  operations applied to what was there; after a kernel, its output array at what the tiles wrote back and everything else
  as it was. Every weakly fair execution terminates without a fault in a state whose unscoped buffers hold the last
  boundary's contents. The arguments are among them, unchanged; and so is the buffer of the result, the softmax's
  quotient: it ends at the last boundary's contents at that buffer. What those contents are, as a function of the
  arguments, is read off the fold elsewhere.
-/
import proofs.«160735_j4501125726898_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from a memory with zero counters terminates, nothing faulting; the result
    buffer ends at the last boundary's contents, and each argument as launched. -/
theorem run_named : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Named

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«160735_j4501125726898_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«160735_j4501125726898_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibDenseStages.lean ====
/-
  Rowwise dense maps over the extended reals, in a tile's spelling and in a whole array's, and row by row: a bias row
  added to every row of a matrix (addRow), the same followed by the maximum with zero (reluRow), and their compositions
  with the plain product mm and the linear layer lin — the dense stages of a two-layer graph convolution with a two-layer
  head. Generic in every size.

  Between the graph aggregations the network applies three dense maps to an array with one row per node:
  X ↦ X·W (layer 1), A ↦ max(A + β, 0)·W (the bias and rectifier of layer 1 fused into layer 2's product), and
  A ↦ ((A + β₂)·W₁ + β₁')·W₂ + β₂' (layer 2's bias fused into the head's two linear layers), where a bias β is one row
  added to every row. Each is written here as one function of whole arrays, built from the product mm, the linear layer
  lin and two rowwise maps, addRow and reluRow. Every entry of a result depends on ONE row of the array of nodes, so a
  block of rows of a result is the same map of the same rows: that is what lets a program compute the maps tile by
  tile. The rowwise maps are read here in the two spellings the programs use: a bias kept as a [1, k] row and broadcast
  down a tile, and a bias vector made a row and then broadcast down the whole array.
-/
import proofs.«160735_j4501125726898_1_alg».proof.Proof.LibDenseProduct
import proofs.«160735_j4501125726898_1_alg».proof.Proof.LibLinearLayer
import Idealize.ShloMosaic.Lib.Pipeline.Value
import Idealize.ShloMosaic.Lib.ValueLayout

noncomputable section

namespace Cert.LibDenseStages

open Idealize.ShloMosaic Idealize.ShloMosaic.ValueIdx
open Cert.LibDenseProduct Cert.LibLinearLayer

variable {m k n : Nat}

/-- The extended real that the word of +0.0 denotes, kept as its word: both programs write the same word. -/
abbrev zeroWord : EReal := Ideal.ofBits .f32 0x00000000#32

/-! ## A bias row added to every row, and the rectifier after it -/

/-- A matrix with the row β added to each of its rows. -/
def addRow (a : FVec Ideal ⟨2, ![m, k]⟩ .f32) (β : Fin k → EReal) : FVec Ideal ⟨2, ![m, k]⟩ .f32 :=
  fun i => a i + β (show Fin k from i 1)

theorem addRow_apply (a : FVec Ideal ⟨2, ![m, k]⟩ .f32) (β : Fin k → EReal) (p : Fin m) (q : Fin k) :
    addRow a β (ix2 p q) = a (ix2 p q) + β q := rfl

/-- A matrix with the row β added to each of its rows, then the maximum with zero entry by entry. -/
def reluRow (a : FVec Ideal ⟨2, ![m, k]⟩ .f32) (β : Fin k → EReal) : FVec Ideal ⟨2, ![m, k]⟩ .f32 :=
  fun i => max (a i + β (show Fin k from i 1)) zeroWord

theorem reluRow_apply (a : FVec Ideal ⟨2, ![m, k]⟩ .f32) (β : Fin k → EReal) (p : Fin m) (q : Fin k) :
    reluRow a β (ix2 p q) = max (a (ix2 p q) + β q) zeroWord := rfl

/-! ## The tile's spelling: the bias is a [1, k] row, broadcast down the tile -/

/-- A tile plus a [1, k] row broadcast down its rows (both passed through reshapes to their own shapes). -/
theorem tile_addRow (h0 : (⟨2, ![m, k]⟩ : Shape).ShapeCasts ⟨2, ![m, k]⟩) (h1 : (⟨2, ![1, k]⟩ : Shape).ShapeCasts ⟨2, ![1, k]⟩)
    (hb : (⟨2, ![1, k]⟩ : Shape).Broadcasts ⟨2, ![m, k]⟩)
    (a : FVec Ideal ⟨2, ![m, k]⟩ .f32) (row : FVec Ideal ⟨2, ![1, k]⟩ .f32) :
    addf (shapeCast ⟨2, ![m, k]⟩ a h0) (broadcastTo ⟨2, ![m, k]⟩ (shapeCast ⟨2, ![1, k]⟩ row h1) hb)
      = addRow a (fun q => row (ix2 (0 : Fin 1) q)) := by
  rw [shapeCast_self, shapeCast_self]
  funext j
  obtain ⟨p, q, rfl⟩ : ∃ (p : Fin m) (q : Fin k), j = ix2 p q := ⟨j 0, j 1, eq_ix2 j⟩
  rw [addRow_apply, addf_apply, broadcastTo_1b_ab_apply]

/-- The same followed by the maximum with a splat of the zero word. -/
theorem tile_reluRow (h0 : (⟨2, ![m, k]⟩ : Shape).ShapeCasts ⟨2, ![m, k]⟩) (h1 : (⟨2, ![1, k]⟩ : Shape).ShapeCasts ⟨2, ![1, k]⟩)
    (hb : (⟨2, ![1, k]⟩ : Shape).Broadcasts ⟨2, ![m, k]⟩)
    (a : FVec Ideal ⟨2, ![m, k]⟩ .f32) (row : FVec Ideal ⟨2, ![1, k]⟩ .f32) :
    maximumf (addf (shapeCast ⟨2, ![m, k]⟩ a h0) (broadcastTo ⟨2, ![m, k]⟩ (shapeCast ⟨2, ![1, k]⟩ row h1) hb))
        (broadcast ⟨2, ![m, k]⟩ (Scalar.ofBits (F := Ideal) .f32 0x00000000#32))
      = reluRow a (fun q => row (ix2 (0 : Fin 1) q)) := by
  rw [tile_addRow]
  funext j
  obtain ⟨p, q, rfl⟩ : ∃ (p : Fin m) (q : Fin k), j = ix2 p q := ⟨j 0, j 1, eq_ix2 j⟩
  rw [reluRow_apply, maximumf_apply, addRow_apply, broadcast_apply]
  rfl

/-- A bias vector reshaped to a [1, k] row reads, in its one row, the vector. -/
theorem reshape_row_apply (b : FVec Ideal ⟨1, ![k]⟩ .f32) (h : (⟨1, ![k]⟩ : Shape).ShapeCasts ⟨2, ![1, k]⟩) (q : Fin k) :
    shapeCast ⟨2, ![1, k]⟩ b h (ix2 (0 : Fin 1) q) = b (ix1 q) :=
  shapeCast_apply b h _ _ (by
    rw [Shape.rowMajor_val_two, Shape.rowMajor_val_one]
    show q.val = 0 * k + q.val
    omega)

/-! ## The whole array's spelling: the bias vector made a row, then broadcast down the array -/

/-- A bias vector broadcast to a [1, k] row and then down m rows reads, at (p, q), the vector at q. -/
theorem host_row_apply (h1 : (⟨1, ![k]⟩ : Shape).BroadcastsInDim ⟨2, ![1, k]⟩ ![1])
    (h2 : (⟨2, ![1, k]⟩ : Shape).BroadcastsInDim ⟨2, ![m, k]⟩ ![0, 1]) (b : FVec Ideal ⟨1, ![k]⟩ .f32) (p : Fin m) (q : Fin k) :
    broadcastInDim ⟨2, ![m, k]⟩ ![0, 1] h2 (broadcastInDim ⟨2, ![1, k]⟩ ![1] h1 b) (ix2 p q) = b (ix1 q) := by
  rw [broadcastInDim_apply ![0, 1] h2 _ (ix2 p q) (ix2 (0 : Fin 1) q) (fun ax => by
    match ax with
    | ⟨0, _⟩ => show (0 : Nat) = if (1 : Nat) = 1 then 0 else p.val; rw [if_pos rfl]
    | ⟨1, _⟩ =>
      show q.val = if k = 1 then 0 else q.val
      split
      · have := q.isLt; omega
      · rfl)]
  exact broadcastInDim_apply ![1] h1 b (ix2 (0 : Fin 1) q) (ix1 q) (fun ax => by
    match ax with
    | ⟨0, _⟩ =>
      show q.val = if k = 1 then 0 else q.val
      split
      · have := q.isLt; omega
      · rfl)

/-- The array plus the bias vector broadcast twice. -/
theorem host_addRow (h1 : (⟨1, ![k]⟩ : Shape).BroadcastsInDim ⟨2, ![1, k]⟩ ![1])
    (h2 : (⟨2, ![1, k]⟩ : Shape).BroadcastsInDim ⟨2, ![m, k]⟩ ![0, 1])
    (a : FVec Ideal ⟨2, ![m, k]⟩ .f32) (b : FVec Ideal ⟨1, ![k]⟩ .f32) :
    addf a (broadcastInDim ⟨2, ![m, k]⟩ ![0, 1] h2 (broadcastInDim ⟨2, ![1, k]⟩ ![1] h1 b)) = addRow a (fun q => b (ix1 q)) := by
  funext j
  obtain ⟨p, q, rfl⟩ : ∃ (p : Fin m) (q : Fin k), j = ix2 p q := ⟨j 0, j 1, eq_ix2 j⟩
  rw [addRow_apply, addf_apply, host_row_apply]

/-- The same followed by the maximum with the scalar zero word broadcast to the array's shape. -/
theorem host_reluRow (h1 : (⟨1, ![k]⟩ : Shape).BroadcastsInDim ⟨2, ![1, k]⟩ ![1])
    (h2 : (⟨2, ![1, k]⟩ : Shape).BroadcastsInDim ⟨2, ![m, k]⟩ ![0, 1])
    (h0 : (⟨0, ![]⟩ : Shape).BroadcastsInDim ⟨2, ![m, k]⟩ ![])
    (a : FVec Ideal ⟨2, ![m, k]⟩ .f32) (b : FVec Ideal ⟨1, ![k]⟩ .f32) :
    maximumf (addf a (broadcastInDim ⟨2, ![m, k]⟩ ![0, 1] h2 (broadcastInDim ⟨2, ![1, k]⟩ ![1] h1 b)))
        (broadcastInDim ⟨2, ![m, k]⟩ ![] h0 (constant (F := Ideal) ⟨0, ![]⟩ .f32 0x00000000#32))
      = reluRow a (fun q => b (ix1 q)) := by
  rw [host_addRow]
  funext j
  obtain ⟨p, q, rfl⟩ : ∃ (p : Fin m) (q : Fin k), j = ix2 p q := ⟨j 0, j 1, eq_ix2 j⟩
  rw [reluRow_apply, maximumf_apply, addRow_apply,
    broadcastInDim_apply (![] : Fin 0 → Fin 2) h0 _ (ix2 p q) ix0 (fun ax => ax.elim0)]
  rfl

/-! ## Row by row -/

/-- An entry of a product depends on one row of the left factor and one column of the right one: if a small left factor
    holds, in its row `j 0`, row `i 0` of a large one, and the right factors agree on columns `j 1` and `i 1`, the
    small product at `j` is the large product at `i`. -/
theorem mm_congr_idx {M : Nat} (X : FVec Ideal ⟨2, ![M, k]⟩ .f32) (W : FVec Ideal ⟨2, ![k, n]⟩ .f32)
    (x0 : FVec Ideal ⟨2, ![m, k]⟩ .f32) (w0 : FVec Ideal ⟨2, ![k, n]⟩ .f32)
    (j : (⟨2, ![m, n]⟩ : Shape).Idx) (i : (⟨2, ![M, n]⟩ : Shape).Idx)
    (hx : ∀ c : Fin k, x0 (ix2 (j 0) c) = X (ix2 (i 0) c)) (hw : ∀ c : Fin k, w0 (ix2 c (j 1)) = W (ix2 c (i 1))) :
    mm x0 w0 j = mm X W i := by
  unfold mm
  exact Finset.sum_congr rfl fun c _ => by rw [hx c, hw c]

/-- The same for a linear layer, whose entry also reads one bias entry. -/
theorem lin_congr_idx {M : Nat} (X : FVec Ideal ⟨2, ![M, k]⟩ .f32) (W : FVec Ideal ⟨2, ![k, n]⟩ .f32) (β : Fin n → EReal)
    (x0 : FVec Ideal ⟨2, ![m, k]⟩ .f32) (w0 : FVec Ideal ⟨2, ![k, n]⟩ .f32) (β0 : Fin n → EReal)
    (j : (⟨2, ![m, n]⟩ : Shape).Idx) (i : (⟨2, ![M, n]⟩ : Shape).Idx)
    (hx : ∀ c : Fin k, x0 (ix2 (j 0) c) = X (ix2 (i 0) c)) (hw : ∀ c : Fin k, w0 (ix2 c (j 1)) = W (ix2 c (i 1)))
    (hβ : β0 (j 1) = β (i 1)) :
    lin x0 w0 β0 j = lin X W β i := by
  unfold lin
  show (∑ c : Fin k, x0 (ix2 (j 0) c) * w0 (ix2 c (j 1))) + β0 (j 1) = (∑ c : Fin k, X (ix2 (i 0) c) * W (ix2 c (i 1))) + β (i 1)
  rw [hβ]
  congr 1
  exact Finset.sum_congr rfl fun c _ => by rw [hx c, hw c]

/-- Layer 2's map row by row: bias and rectifier act entry by entry, then the product reads one row. -/
theorem reluRow_mm_congr_idx {M : Nat} (X : FVec Ideal ⟨2, ![M, k]⟩ .f32) (β : Fin k → EReal) (W : FVec Ideal ⟨2, ![k, n]⟩ .f32)
    (x0 : FVec Ideal ⟨2, ![m, k]⟩ .f32) (β0 : Fin k → EReal) (w0 : FVec Ideal ⟨2, ![k, n]⟩ .f32)
    (j : (⟨2, ![m, n]⟩ : Shape).Idx) (i : (⟨2, ![M, n]⟩ : Shape).Idx)
    (hx : ∀ c : Fin k, x0 (ix2 (j 0) c) = X (ix2 (i 0) c)) (hβ : ∀ c : Fin k, β0 c = β c)
    (hw : ∀ c : Fin k, w0 (ix2 c (j 1)) = W (ix2 c (i 1))) :
    mm (reluRow x0 β0) w0 j = mm (reluRow X β) W i :=
  mm_congr_idx (reluRow X β) W (reluRow x0 β0) w0 j i
    (fun c => by
      show max (x0 (ix2 (j 0) c) + β0 c) zeroWord = max (X (ix2 (i 0) c) + β c) zeroWord
      rw [hx c, hβ c]) hw

/-- The head's map row by row: a bias, then two linear layers; the first layer's weights and bias are read whole. -/
theorem head_congr_idx {M k1 k2 : Nat} (X : FVec Ideal ⟨2, ![M, k1]⟩ .f32) (β : Fin k1 → EReal)
    (W1 : FVec Ideal ⟨2, ![k1, k2]⟩ .f32) (β1 : Fin k2 → EReal) (W2 : FVec Ideal ⟨2, ![k2, n]⟩ .f32) (β2 : Fin n → EReal)
    (x0 : FVec Ideal ⟨2, ![m, k1]⟩ .f32) (β' : Fin k1 → EReal)
    (w1 : FVec Ideal ⟨2, ![k1, k2]⟩ .f32) (β1' : Fin k2 → EReal) (w2 : FVec Ideal ⟨2, ![k2, n]⟩ .f32) (β2' : Fin n → EReal)
    (j : (⟨2, ![m, n]⟩ : Shape).Idx) (i : (⟨2, ![M, n]⟩ : Shape).Idx)
    (hx : ∀ c : Fin k1, x0 (ix2 (j 0) c) = X (ix2 (i 0) c)) (hβ : ∀ c : Fin k1, β' c = β c)
    (hw1 : ∀ (c : Fin k1) (d : Fin k2), w1 (ix2 c d) = W1 (ix2 c d)) (hβ1 : ∀ d : Fin k2, β1' d = β1 d)
    (hw2 : ∀ d : Fin k2, w2 (ix2 d (j 1)) = W2 (ix2 d (i 1))) (hβ2 : β2' (j 1) = β2 (i 1)) :
    lin (lin (addRow x0 β') w1 β1') w2 β2' j = lin (lin (addRow X β) W1 β1) W2 β2 i :=
  lin_congr_idx (lin (addRow X β) W1 β1) W2 β2 (lin (addRow x0 β') w1 β1') w2 β2' j i
    (fun d => lin_congr_idx (addRow X β) W1 β1 (addRow x0 β') w1 β1' (ix2 (j 0) d) (ix2 (i 0) d)
      (fun c => by
        show x0 (ix2 (j 0) c) + β' c = X (ix2 (i 0) c) + β c
        rw [hx c, hβ c])
      (fun c => hw1 c d) (hβ1 d))
    hw2 hβ2

end Cert.LibDenseStages

end
-- ==== Proof.Region0.lean ====
/-
  Layer 1's product, tile by tile: the first kernel's output array is x·W.

  The kernel walks the 100000 rows of x in 20 tiles of 5000. At tile t it holds rows 5000·t … 5000·t + 4999 of x and
  the whole of W, multiplies them into a zero accumulator, and writes the 5000×64 result back as the same rows of the
  output. An entry of a product depends on one row of its left factor, so what tile t writes is rows
  5000·t … 5000·t + 4999 of the whole product x·W; the tiles cover every row, so the output array is x·W. This holds
  whatever the buffers held when the kernel was entered: the statement is about the entry contents V.
-/
import proofs.«160735_j4501125726898_1_alg».proof.Proof.Gen.KernelIdeal.Frame
import proofs.«160735_j4501125726898_1_alg».proof.Proof.LibDenseStages

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDenseProduct Cert.LibDenseStages

/-- The tile's arithmetic is the product of the tile of x with W: rounding either factor to a narrower format changes
    nothing at the ideal values, and the accumulator starts at zero. -/
theorem pay_eq (x0 : Vec Ideal S5000x128 .f32) (x1 : Vec Ideal S128x64 .f32) :
    k0_pay1 x0 x1 = mm (φ₁ := .f32) (φ₂ := .f32) x0 x1 := by
  unfold k0_pay1
  exact (matmul_plain_zero_eq none _ _).trans rfl

variable (V : (c : Dev nD) → (b : Ref sig .tc) → Buf (Elt Ideal) ((c : Thread nD τ).loc b))

theorem hz : (![0, 0] : Fin 2 → Nat) = fun _ => 0 := funext fun a => by fin_cases a <;> rfl

/-- Where the windows sit at grid point t: the tile of x and the output tile are at block row t, block column 0; W is
    the one block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product. -/
theorem flushed_eq (c : Dev nD) (t : Fin cfg0.N) :
    (dat0 V c).flushed 2 t = ((cfg0.win 2).blk t).view.read (Elt Ideal)
      (mm (φ₁ := .f32) (φ₂ := .f32) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  refine (congrFun (pay_eq (iblk0 V c 0 t) (iblk0 V c 1 t)) j).trans ?_
  refine mm_congr_idx (V c main_arg0) (V c main_arg2)
    (iblk0 V c 0 t) (iblk0 V c 1 t) j (((cfg0.win 2).blk t).view.emb j) (fun cc => ?_) (fun cc => ?_)
  · show V c main_arg0 (((cfg0.win 0).blk t).view.emb (ix2 (j 0) cc)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * cc.val = cc.val; omega
  · show V c main_arg2 (((cfg0.win 1).blk t).view.emb (ix2 cc (j 1))) = _
    refine congrArg (V c main_arg2) (funext fun a => Fin.ext ?_)
    match a with
    | ⟨0, _⟩ => show win0_1.index t (0 : Fin 2) * 128 + 1 * cc.val = cc.val; omega
    | ⟨1, _⟩ => show win0_1.index t (1 : Fin 2) * 64 + 1 * (j 1).val = win0_2.index t (1 : Fin 2) * 64 + 1 * (j 1).val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the output array is in some point's block: row r is in tile r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨e0, e1, e2, e3, e4, e5⟩ := idx_facts t
  refine ⟨t, flush0_2 t, ?_⟩
  rw [mem_blk]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the kernel is the whole product of the two arrays the kernel was entered with. -/
theorem final (c : Dev nD) : (dat0 V c).arrAt 2 cfg0.N
    = mm (φ₁ := .f32) (φ₂ := .f32) (V c main_arg0) (V c main_arg2) :=
  (dat0 V c).arrAt_eq_of_cover 2 _ (fun t _ => flushed_eq V c t) cover

end Cert.KernelIdeal.Region0

end
-- ==== Proof.Region1.lean ====
/-
  Layer 2's fused map, tile by tile: the second kernel's output array is max(A + b1, 0)·W2.

  The kernel walks the 100000 rows of the aggregated features A in 20 tiles of 5000. At tile t it holds rows
  5000·t … 5000·t + 4999 of A, the bias as one [1, 64] row and the whole of W2; it adds the row to every row of the tile,
  takes the maximum with zero, multiplies by W2 into a zero accumulator, and writes the result back as the same rows of
  the output. The bias and the rectifier act entry by entry and an entry of a product depends on one row of its left
  factor, so tile t writes rows 5000·t … 5000·t + 4999 of the map applied to the whole of A; the tiles cover every row.
  The statement is about the buffers' contents V when the kernel is entered, whatever they are.
-/
import proofs.«160735_j4501125726898_1_alg».proof.Proof.Gen.KernelIdeal.Frame
import proofs.«160735_j4501125726898_1_alg».proof.Proof.LibDenseStages

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibDenseProduct Cert.LibDenseStages

/-- The tile's arithmetic: the bias row added down the tile, the maximum with zero, then the product with W2 (rounding
    a factor to a narrower format changes nothing at the ideal values; the accumulator starts at zero). -/
theorem pay_eq (v0 : Vec Ideal S5000x64 .f32) (v2 : Vec Ideal S1x64 .f32) (v9 : Vec Ideal S64x64 .f32) :
    k1_pay1 v0 v2 v9 = mm (φ₁ := .f32) (φ₂ := .f32) (reluRow v0 (fun q : Fin 64 => v2 (ix2 (0 : Fin 1) q))) v9 := by
  unfold k1_pay1
  dsimp only
  rw [tile_reluRow]
  exact (matmul_plain_zero_eq none _ _).trans rfl

variable (V : (c : Dev nD) → (b : Ref sig .tc) → Buf (Elt Ideal) ((c : Thread nD τ).loc b))

theorem hz : (![0, 0] : Fin 2 → Nat) = fun _ => 0 := funext fun a => by fin_cases a <;> rfl

/-- Where the windows sit at grid point t: the tile of A and the output tile are at block row t, block column 0; the
    bias row and W2 are each the one block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array map at the kernel's entry contents. -/
abbrev G (c : Dev nD) : FVec Ideal S100000x64 .f32 :=
  mm (φ₁ := .f32) (φ₂ := .f32) (reluRow (V c main_v43) (fun q : Fin 64 => V c main_v44 (ix2 (0 : Fin 1) q))) (V c main_arg4)

/-- What grid point t writes back is block t of the whole-array map. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  obtain ⟨e0, e1, e2, e3, e4, e5, e6, e7⟩ := idx_facts t
  funext j
  refine (congrFun (pay_eq (iblk1 V c 0 t) (iblk1 V c 1 t) (iblk1 V c 2 t)) j).trans ?_
  refine reluRow_mm_congr_idx (V c main_v43) (fun q : Fin 64 => V c main_v44 (ix2 (0 : Fin 1) q)) (V c main_arg4)
    (iblk1 V c 0 t) (fun q : Fin 64 => iblk1 V c 1 t (ix2 (0 : Fin 1) q)) (iblk1 V c 2 t)
    j (((cfg1.win 3).blk t).view.emb j) (fun cc => ?_) (fun cc => ?_) (fun cc => ?_)
  · show V c main_v43 (((cfg1.win 0).blk t).view.emb (ix2 (j 0) cc)) = _
    refine congrArg (V c main_v43) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * cc.val = cc.val; omega
  · show V c main_v44 (((cfg1.win 1).blk t).view.emb (ix2 (0 : Fin 1) cc)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * cc.val = cc.val; omega
  · show V c main_arg4 (((cfg1.win 2).blk t).view.emb (ix2 cc (j 1))) = _
    refine congrArg (V c main_arg4) (funext fun a => Fin.ext ?_)
    match a with
    | ⟨0, _⟩ => show win1_2.index t (0 : Fin 2) * 64 + 1 * cc.val = cc.val; omega
    | ⟨1, _⟩ => show win1_2.index t (1 : Fin 2) * 64 + 1 * (j 1).val = win1_3.index t (1 : Fin 2) * 64 + 1 * (j 1).val; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the output array is in some point's block: row r is in tile r / 5000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  obtain ⟨e0, e1, e2, e3, e4, e5, e6, e7⟩ := idx_facts t
  refine ⟨t, flush1_3 t, ?_⟩
  rw [mem_blk]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the kernel is the whole-array map of the arrays the kernel was entered with. -/
theorem final (c : Dev nD) : (dat1 V c).arrAt 3 cfg1.N = G V c :=
  (dat1 V c).arrAt_eq_of_cover 3 _ (fun t _ => flushed_eq V c t) cover

end Cert.KernelIdeal.Region1

end
-- ==== Proof.Region2.lean ====
/-
  The head, tile by tile: the third kernel's output array is ((A + b2)·Wl1 + bl1)·Wl2 + bl2.

  The kernel walks the 100000 rows of the aggregated features A in 20 tiles of 5000. At tile t it holds rows
  5000·t … 5000·t + 4999 of A, the three biases as [1, 64], [1, 32] and [1, 2] rows, and the whole of the two weight
  matrices; it adds the first row down the tile, applies the first linear layer (product into a zero accumulator plus
  the second row), then the second (product plus the third row), and writes the 5000×2 result back as the same rows of the
  output. A bias acts entry by entry and an entry of a product depends on one row of its left factor, so tile t writes
  rows 5000·t … 5000·t + 4999 of the map applied to the whole of A; the tiles cover every row. The statement is about the
  buffers' contents V when the kernel is entered, whatever they are.
-/
import proofs.«160735_j4501125726898_1_alg».proof.Proof.Gen.KernelIdeal.Frame
import proofs.«160735_j4501125726898_1_alg».proof.Proof.LibDenseStages

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibLinearLayer Cert.LibDenseStages

/-- The tile's arithmetic: a bias row added down the tile, then two linear layers, each a product of its two factors
    rounded to a narrower format (nothing, at the ideal values) into a zero accumulator plus a bias row. -/
theorem pay_eq (v0 : Vec Ideal S5000x64 .f32) (v2 : Vec Ideal S1x64 .f32) (v7 : Vec Ideal S64x32 .f32)
    (v10 : Vec Ideal S1x32 .f32) (v15 : Vec Ideal S32x2 .f32) (v18 : Vec Ideal S1x2 .f32) :
    k2_pay1 v0 v2 v7 v10 v15 v18
      = lin (lin (addRow v0 (fun q : Fin 64 => v2 (ix2 (0 : Fin 1) q))) v7 (fun q : Fin 32 => v10 (ix2 (0 : Fin 1) q))) v15
          (fun q : Fin 2 => v18 (ix2 (0 : Fin 1) q)) := by
  unfold k2_pay1
  dsimp only
  rw [tile_addRow, shapeCast_self v10, shapeCast_self v18,
    body_eq_lin dot_S5000x64_S64x32_S5000x32_1_0_0_1_n_n rfl, body_eq_lin dot_S5000x32_S32x2_S5000x2_1_0_0_1_n_n rfl]

variable (V : (c : Dev nD) → (b : Ref sig .tc) → Buf (Elt Ideal) ((c : Thread nD τ).loc b))

theorem hz : (![0, 0] : Fin 2 → Nat) = fun _ => 0 := funext fun a => by fin_cases a <;> rfl

/-- Where the windows sit at grid point t: the tile of A and the output tile are at block row t, block column 0; each
    bias row and each weight matrix is the one block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The whole-array map at the kernel's entry contents. -/
abbrev G (c : Dev nD) : FVec Ideal S100000x2 .f32 :=
  lin (lin (addRow (V c main_v58) (fun q : Fin 64 => V c main_v59 (ix2 (0 : Fin 1) q))) (V c main_arg6)
      (fun q : Fin 32 => V c main_v60 (ix2 (0 : Fin 1) q))) (V c main_arg8) (fun q : Fin 2 => V c main_v61 (ix2 (0 : Fin 1) q))

/-- What grid point t writes back is block t of the whole-array map. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x32) hz,
    View.ld_unit_zero (S := S1x32) hz, View.ld_unit_zero (S := S32x2) hz, View.ld_unit_zero (S := S1x2) hz]
  obtain ⟨e0, e1, e2, e3, e4, e5, e6, e7, e8, e9, e10, e11, e12, e13⟩ := idx_facts t
  funext j
  refine (congrFun (pay_eq (iblk2 V c 0 t) (iblk2 V c 1 t) (iblk2 V c 2 t) (iblk2 V c 3 t) (iblk2 V c 4 t) (iblk2 V c 5 t)) j).trans ?_
  refine head_congr_idx (V c main_v58) (fun q : Fin 64 => V c main_v59 (ix2 (0 : Fin 1) q)) (V c main_arg6)
    (fun q : Fin 32 => V c main_v60 (ix2 (0 : Fin 1) q)) (V c main_arg8) (fun q : Fin 2 => V c main_v61 (ix2 (0 : Fin 1) q))
    (iblk2 V c 0 t) (fun q : Fin 64 => iblk2 V c 1 t (ix2 (0 : Fin 1) q)) (iblk2 V c 2 t)
    (fun q : Fin 32 => iblk2 V c 3 t (ix2 (0 : Fin 1) q)) (iblk2 V c 4 t) (fun q : Fin 2 => iblk2 V c 5 t (ix2 (0 : Fin 1) q))
    j (((cfg2.win 6).blk t).view.emb j) (fun cc => ?_) (fun cc => ?_) (fun cc dd => ?_) (fun dd => ?_) (fun dd => ?_) ?_
  · show V c main_v58 (((cfg2.win 0).blk t).view.emb (ix2 (j 0) cc)) = _
    refine congrArg (V c main_v58) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 64 + 1 * cc.val = cc.val; omega
  · show V c main_v59 (((cfg2.win 1).blk t).view.emb (ix2 (0 : Fin 1) cc)) = _
    refine congrArg (V c main_v59) (funext fun a => Fin.ext ?_)
    match a with
    | ⟨0, _⟩ => show win2_1.index t (0 : Fin 2) * 1 + 1 * 0 = 0; omega
    | ⟨1, _⟩ => show win2_1.index t (1 : Fin 2) * 64 + 1 * cc.val = cc.val; omega
  · show V c main_arg6 (((cfg2.win 2).blk t).view.emb (ix2 cc dd)) = _
    refine congrArg (V c main_arg6) (funext fun a => Fin.ext ?_)
    match a with
    | ⟨0, _⟩ => show win2_2.index t (0 : Fin 2) * 64 + 1 * cc.val = cc.val; omega
    | ⟨1, _⟩ => show win2_2.index t (1 : Fin 2) * 32 + 1 * dd.val = dd.val; omega
  · show V c main_v60 (((cfg2.win 3).blk t).view.emb (ix2 (0 : Fin 1) dd)) = _
    refine congrArg (V c main_v60) (funext fun a => Fin.ext ?_)
    match a with
    | ⟨0, _⟩ => show win2_3.index t (0 : Fin 2) * 1 + 1 * 0 = 0; omega
    | ⟨1, _⟩ => show win2_3.index t (1 : Fin 2) * 32 + 1 * dd.val = dd.val; omega
  · show V c main_arg8 (((cfg2.win 4).blk t).view.emb (ix2 dd (j 1))) = _
    refine congrArg (V c main_arg8) (funext fun a => Fin.ext ?_)
    match a with
    | ⟨0, _⟩ => show win2_4.index t (0 : Fin 2) * 32 + 1 * dd.val = dd.val; omega
    | ⟨1, _⟩ => show win2_4.index t (1 : Fin 2) * 2 + 1 * (j 1).val = win2_6.index t (1 : Fin 2) * 2 + 1 * (j 1).val; omega
  · show V c main_v61 (((cfg2.win 5).blk t).view.emb (ix2 (0 : Fin 1) (j 1))) = _
    refine congrArg (V c main_v61) (funext fun a => Fin.ext ?_)
    match a with
    | ⟨0, _⟩ => show win2_5.index t (0 : Fin 2) * 1 + 1 * 0 = 0; omega
    | ⟨1, _⟩ => show win2_5.index t (1 : Fin 2) * 2 + 1 * (j 1).val = win2_6.index t (1 : Fin 2) * 2 + 1 * (j 1).val; omega

/-- An index of the output array is in point t's block iff each coordinate is in the block's range on its axis. -/
theorem mem_blk (t : Fin cfg2.N) (i : S100000x2.Idx) :
    i ∈ ((cfg2.win 6).blk t).view.set ↔ ∀ a : Fin 2, win2_6.index t a * S5000x2.size a ≤ (i a).val ∧ (i a).val < win2_6.index t a * S5000x2.size a + S5000x2.size a := by
  show i ∈ ((View.whole main_v62).slice (win2_6.rect t)).set ↔ _
  rw [View.set_slice_whole, Rect.mem_set_unit]
  exact Iff.rfl

/-- Every index of the output array is in some point's block: row r is in tile r / 5000. -/
theorem cover (i : S100000x2.Idx) : ∃ t : Fin cfg2.N, (cfg2.win 6).flush t = true ∧ i ∈ ((cfg2.win 6).blk t).view.set := by
  have hi0 : (i 0).val < 100000 := (i 0).isLt
  have hi1 : (i 1).val < 2 := (i 1).isLt
  have hN : grid2.N = 20 := N_2
  let t : Fin cfg2.N := ⟨(i 0).val / 5000, by show (i 0).val / 5000 < grid2.N; omega⟩
  obtain ⟨e0, e1, e2, e3, e4, e5, e6, e7, e8, e9, e10, e11, e12, e13⟩ := idx_facts t
  refine ⟨t, flush2_6 t, ?_⟩
  rw [mem_blk]
  intro a
  have ht : t.val = (i 0).val / 5000 := rfl
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 2 ≤ (i 1).val ∧ (i 1).val < win2_6.index t (1 : Fin 2) * 2 + 2; omega

/-- The output array after the kernel is the whole-array map of the arrays the kernel was entered with. -/
theorem final (c : Dev nD) : (dat2 V c).arrAt 6 cfg2.N = G V c :=
  (dat2 V c).arrAt_eq_of_cover 6 _ (fun t _ => flushed_eq V c t) cover

end Cert.KernelIdeal.Region2

end
-- ==== Proof.GraphOps.lean ====
/-
  The graph side of the network, in the programs' own operations.

  Both programs turn the 2 × 3200000 edge list into the same three arrays and use them in the same way; only the dense
  maps between these steps are computed differently. Written once here, as functions of the edge list ei:
  * srcs, dsts — the 3200000 edge sources (row 0) and targets (row 1), each followed by the 100000 self loops 0 … 99999;
  * wrapCol v — v as a column of start indices, a negative entry first moved up by 100000 (the wrap of a negative index);
  * deg — the number of edges into each node, a scatter-add of ones at dsts; dinv — its inverse square root where
    positive, zero elsewhere; weight — per edge, dinv at its source times dinv at its target (weightWith, of dinv);
  * aggregate h — for an array h with one row per node: gather the source row of every edge, scale it by the edge's
    weight, and scatter-add it into the target's row of a zero array;
  * softmaxNodes l — over the node axis of a [100000, 2] array: subtract the column maximum, exponentiate, divide by the
    column sum.
  Nothing here is computed: these are names for compositions of the printed operations, so that two runs can be seen to
  apply the same composition.
-/
import proofs.«160735_j4501125726898_1_alg».proof.Proof.Gen.ReferenceIdeal
import Idealize.ShloMosaic.PureOps.Ideal

noncomputable section

namespace Cert.GraphOps

open Cert.ReferenceIdeal Cert.ReferenceIdeal.Gen Idealize.ShloMosaic

abbrev EdgeList := IVec S2x3200000 32
abbrev EdgeIdx := IVec S3300000 32
abbrev EdgeCol := IVec S3300000x1 32
abbrev EdgeWeight := FVec Ideal S3300000 .f32
abbrev NodeVec := FVec Ideal S100000 .f32
abbrev NodeFeat := FVec Ideal S100000x64 .f32
abbrev Logits := FVec Ideal S100000x2 .f32

/-- Edge sources, then the self loops. -/
def srcs (ei : EdgeList) : EdgeIdx :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- Edge targets, then the self loops. -/
def dsts (ei : EdgeList) : EdgeIdx :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- An index vector as a column. -/
def col (v : EdgeIdx) : EdgeCol := broadcastInDim S3300000x1 ![0] bcast_S3300000_S3300000x1_0 v

/-- An index vector with negative entries wrapped, as a column of start indices. -/
def wrapCol (v : EdgeIdx) : EdgeCol :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- In-degrees (self loop included): ones scatter-added at the targets. -/
def deg (ei : EdgeList) : NodeVec :=
  Host.scatterAdd scatter_S100000_S3300000x1_S3300000_n_0_0_1
    (broadcastInDim S100000 ![] bcast_S_S100000 (constant S_ .f32 0x00000000#32)) (col (dsts ei))
    (broadcastInDim S3300000 ![] bcast_S_S3300000 (constant S_ .f32 0x3F800000#32))

/-- deg^(-1/2) where the degree is positive, zero elsewhere. -/
def dinv (ei : EdgeList) : NodeVec :=
  select (cmpf (F := Ideal) .ogt (deg ei) (broadcastInDim S100000 ![] bcast_S_S100000 (constant S_ .f32 0x00000000#32)))
    (Host.rsqrt (deg ei)) (broadcastInDim S100000 ![] bcast_S_S100000 (id (constant S_ .f32 0x00000000#32)))

/-- Per edge, a node vector's value at the edge's source times its value at the edge's target. -/
def weightWith (di : NodeVec) (s : EdgeIdx) (d : EdgeIdx) : EdgeWeight :=
  mulf (Host.gather gather_S100000_S3300000x1_S3300000_n_0_n_n_0_1_1 di (wrapCol s))
    (Host.gather gather_S100000_S3300000x1_S3300000_n_0_n_n_0_1_1 di (wrapCol d))

/-- The symmetric normalisation: per edge, dinv at its source times dinv at its target. -/
def weight (ei : EdgeList) : EdgeWeight := weightWith (dinv ei) (srcs ei) (dsts ei)

/-- Gather the rows of h at the given starts, scale row e by w e, scatter-add into the rows the targets name. -/
def aggregateWith (h : NodeFeat) (s : EdgeIdx) (d : EdgeIdx) (w : EdgeWeight) : NodeFeat :=
  Host.scatterAdd scatter_S100000x64_S3300000x1_S3300000x64_1_0_0_1
    (broadcastInDim S100000x64 ![] bcast_S_S100000x64 (constant S_ .f32 0x00000000#32)) (col d)
    (mulf (Host.gather gather_S100000x64_S3300000x1_S3300000x64_1_0_n_n_0_1_164 h (wrapCol s))
      (broadcastInDim S3300000x64 ![0, 1] bcast_S3300000x1_S3300000x64_0_1
        (broadcastInDim S3300000x1 ![0] bcast_S3300000_S3300000x1_0 w)))

/-- One round of normalised neighbourhood aggregation over the graph of ei. -/
def aggregate (h : NodeFeat) (ei : EdgeList) : NodeFeat := aggregateWith h (srcs ei) (dsts ei) (weight ei)

/-- The column maxima of the logits (never below −∞, the reduction's initial value), as a [100000, 2] array. -/
def colMax (l : Logits) : Logits :=
  broadcastInDim S100000x2 ![0, 1] bcast_S1x2_S100000x2_0_1 (broadcastInDim S1x2 ![1] bcast_S2_S1x2_1
    (maximumf (broadcastInDim S2 ![] bcast_S_S2 (constant S_ .f32 0xFF800000#32))
      (Host.reduce FloatOps.maximumf l (constant S_ .f32 0xFF800000#32) reducesTo_S100000x2_S2_d0 h_S_)))

/-- exp of the logits shifted by their column maxima. -/
def expShifted (l : Logits) : Logits := Host.exp (subf l (colMax l))

/-- A [100000, 2] array divided by its column sums. -/
def divColSum (e : Logits) : Logits :=
  Host.divf e (broadcastInDim S100000x2 ![0, 1] bcast_S1x2_S100000x2_0_1 (broadcastInDim S1x2 ![1] bcast_S2_S1x2_1
    (Host.reduceAdd e (constant S_ .f32 0x00000000#32) reducesTo_S100000x2_S2_d0 h_S_)))

/-- The softmax over the node axis. -/
def softmaxNodes (l : Logits) : Logits := divColSum (expShifted l)

end Cert.GraphOps

end
-- ==== Proof.Network.lean ====
/-
  The whole network as one function of its arguments, over the extended reals.

  With A the normalised aggregation over the graph of the edge list (GraphOps), the two programs both compute
    softmax over nodes of ((A(max(A(x·W1) + b1, 0)·W2) + b2)·Wl1 + bl1)·Wl2 + bl2,
  every product and sum exact. This module only names that composition; that each program's result is this function of
  its arguments is shown where each program is read.
-/
import proofs.«160735_j4501125726898_1_alg».proof.Proof.GraphOps
import proofs.«160735_j4501125726898_1_alg».proof.Proof.LibDenseStages

noncomputable section

namespace Cert.Network

open Cert.ReferenceIdeal Idealize.ShloMosaic Idealize.ShloMosaic.ValueIdx
open Cert.GraphOps Cert.LibDenseStages Cert.LibDenseProduct Cert.LibLinearLayer

/-- A bias vector as a function of the lane. -/
abbrev lanes {k : Nat} (b : FVec Ideal ⟨1, ![k]⟩ .f32) : Fin k → EReal := fun q => b (ix1 q)

/-- Layer 1 before its bias: the node features times W1. -/
def layer1 (x : FVec Ideal S100000x128 .f32) (W1 : FVec Ideal S128x64 .f32) : NodeFeat := mm x W1

/-- Layer 1's bias and rectifier, then layer 2's product. -/
def layer2 (a : NodeFeat) (b1 : FVec Ideal S64 .f32) (W2 : FVec Ideal S64x64 .f32) : NodeFeat :=
  mm (reluRow a (lanes b1)) W2

/-- Layer 2's bias, then the head's two linear layers. -/
def head (a : NodeFeat) (b2 : FVec Ideal S64 .f32) (Wl1 : FVec Ideal S64x32 .f32) (bl1 : FVec Ideal S32 .f32)
    (Wl2 : FVec Ideal S32x2 .f32) (bl2 : FVec Ideal S2 .f32) : Logits :=
  lin (lin (addRow a (lanes b2)) Wl1 (lanes bl1)) Wl2 (lanes bl2)

/-- The network. -/
def network (x : FVec Ideal S100000x128 .f32) (ei : EdgeList) (W1 : FVec Ideal S128x64 .f32) (b1 : FVec Ideal S64 .f32)
    (W2 : FVec Ideal S64x64 .f32) (b2 : FVec Ideal S64 .f32) (Wl1 : FVec Ideal S64x32 .f32) (bl1 : FVec Ideal S32 .f32)
    (Wl2 : FVec Ideal S32x2 .f32) (bl2 : FVec Ideal S2 .f32) : Logits :=
  softmaxNodes (head (aggregate (layer2 (aggregate (layer1 x W1) ei) b1 W2) ei) b2 Wl1 bl1 Wl2 bl2)

end Cert.Network

end
-- ==== Proof.KernelFold.lean ====
/-
  The idealized kernel computes the network.

  Its run ends with the result buffer at the last boundary's contents (KernelRun). Those contents are read here back
  through the fold, boundary by boundary. The host stretches apply the graph operations GraphOps names: before the first
  kernel they build the edge sources, targets and weights from the edge list; between kernels they aggregate the previous
  kernel's output over the graph and reshape each bias vector to a [1, k] row; after the last kernel they take the softmax
  over nodes. A kernel leaves in its output array a dense map of its input arrays (Region0, Region1, Region2) and every other
  buffer as it was. A bias vector reshaped to a row and read along that row is the vector itself, so the three kernels'
  maps are layer1, layer2 and head of the arguments, and the result is the network.
-/
import proofs.«160735_j4501125726898_1_alg».proof.Proof.Region0
import proofs.«160735_j4501125726898_1_alg».proof.Proof.Region1
import proofs.«160735_j4501125726898_1_alg».proof.Proof.Region2
import proofs.«160735_j4501125726898_1_alg».proof.Proof.Network
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo Idealize.ShloMosaic.ValueIdx Idealize.SL.Sem
open Cert.GraphOps Cert.LibDenseStages Cert.LibDenseProduct Cert.LibLinearLayer Cert.Network

variable (m : (ℓ : Loc nD τ sig) → Buf (Elt Ideal) ℓ) (ρ : Dev nD → PrngReg) (c : Dev nD)

/-- Open the boundary's fold over its host stretch and read each operation's result at its own buffer, any other buffer
    at what was there before. -/
local macro "read_fold" : tactic =>
  `(tactic| (dsimp only [W1, W2, W3, W5, W7, W9, hostOps0, hostOps0_1, hostOps0_2, hostOps1, hostOps2, hostOps3]; after_results))

/-- The same in one simplification pass, each shared subterm visited once: for the buffers with a long history. -/
local macro "read_fold_once" : tactic =>
  `(tactic| (dsimp only [W1, W2, W3, W5, W7, W9, hostOps0, hostOps0_1, hostOps0_2, hostOps1, hostOps2, hostOps3]; after_results_simp))

/-- Read what the one pass leaves inside an operand list, one operation at a time. -/
local macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## Entering the first kernel: the arguments as launched, and the graph's three arrays -/

theorem w3_arg0 : W3 m ρ c (Proc.devRef .tc main_arg0) = (m ((c.tc : Thread nD τ).loc main_arg0)) := by
  read_fold
  all_goals rfl
theorem w3_arg2 : W3 m ρ c (Proc.devRef .tc main_arg2) = (m ((c.tc : Thread nD τ).loc main_arg2)) := by
  read_fold
  all_goals rfl
theorem w3_arg3 : W3 m ρ c (Proc.devRef .tc main_arg3) = (m ((c.tc : Thread nD τ).loc main_arg3)) := by
  read_fold
  all_goals rfl
theorem w3_arg4 : W3 m ρ c (Proc.devRef .tc main_arg4) = (m ((c.tc : Thread nD τ).loc main_arg4)) := by
  read_fold
  all_goals rfl
theorem w3_arg5 : W3 m ρ c (Proc.devRef .tc main_arg5) = (m ((c.tc : Thread nD τ).loc main_arg5)) := by
  read_fold
  all_goals rfl
theorem w3_arg6 : W3 m ρ c (Proc.devRef .tc main_arg6) = (m ((c.tc : Thread nD τ).loc main_arg6)) := by
  read_fold
  all_goals rfl
theorem w3_arg7 : W3 m ρ c (Proc.devRef .tc main_arg7) = (m ((c.tc : Thread nD τ).loc main_arg7)) := by
  read_fold
  all_goals rfl
theorem w3_arg8 : W3 m ρ c (Proc.devRef .tc main_arg8) = (m ((c.tc : Thread nD τ).loc main_arg8)) := by
  read_fold
  all_goals rfl
theorem w3_arg9 : W3 m ρ c (Proc.devRef .tc main_arg9) = (m ((c.tc : Thread nD τ).loc main_arg9)) := by
  read_fold
  all_goals rfl
/-- The edge sources followed by the self loops, as the first kernel finds them. -/
theorem w3_src : W3 m ρ c (Proc.devRef .tc main_v5) = srcs (m ((c.tc : Thread nD τ).loc main_arg1)) := by
  read_fold
  all_goals rfl
/-- The edge targets followed by the self loops. -/
theorem w3_dst : W3 m ρ c (Proc.devRef .tc main_v6) = dsts (m ((c.tc : Thread nD τ).loc main_arg1)) := by
  read_fold
  all_goals rfl
/-! The edge weights, stretch by stretch: the degrees and what the first stretch derives from them; the inverse square
    root where the degree is positive, chosen by the second stretch; the product of its values at an edge's two ends. -/

set_option maxHeartbeats 1000000 in
theorem w1_gt : W1 m ρ c (Proc.devRef .tc main_v12)
    = cmpf (F := Ideal) .ogt (deg (m ((c.tc : Thread nD τ).loc main_arg1))) (broadcastInDim S100000 ![] bcast_S_S100000 (constant S_ .f32 0x00000000#32)) := by
  read_fold_once
  read_rest
  all_goals rfl
set_option maxHeartbeats 1000000 in
theorem w1_rs : W1 m ρ c (Proc.devRef .tc main_v13) = Host.rsqrt (deg (m ((c.tc : Thread nD τ).loc main_arg1))) := by
  read_fold_once
  read_rest
  all_goals rfl
theorem w1_zero : W1 m ρ c (Proc.devRef .tc main_cst_2) = constant (F := Ideal) S_ .f32 0x00000000#32 := by
  read_fold
  all_goals rfl
theorem w2_src : W2 m ρ c (Proc.devRef .tc main_v5) = srcs (m ((c.tc : Thread nD τ).loc main_arg1)) := by
  read_fold
  all_goals rfl
theorem w2_dst : W2 m ρ c (Proc.devRef .tc main_v6) = dsts (m ((c.tc : Thread nD τ).loc main_arg1)) := by
  read_fold
  all_goals rfl
/-- The second stretch, from any contents V: it selects between three of V's buffers. -/
theorem select_of (V : Valuation τ sig (Elt Ideal)) : StableHlo.after hostOps0_1 V (Proc.devRef .tc main_v14)
    = select (V (Proc.devRef .tc main_v12)) (V (Proc.devRef .tc main_v13))
        (broadcastInDim S100000 ![] bcast_S_S100000 (id (V (Proc.devRef .tc main_cst_2)))) := by
  dsimp only [hostOps0_1]
  after_results_simp
  all_goals rfl
theorem w2_dinv_sel : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) :=
  select_of (W1 m ρ c)
/-- The inverse square roots of the degrees, zero where the degree is not positive. -/
theorem w2_dinv : W2 m ρ c (Proc.devRef .tc main_v14) = dinv (m ((c.tc : Thread nD τ).loc main_arg1)) :=
  (w2_dinv_sel m ρ c).trans (by rw [w1_gt, w1_rs, w1_zero]; rfl)
/-- The third stretch, from any contents V: per edge, the product of a node vector's values at the edge's two ends. -/
theorem weight_of (V : Valuation τ sig (Elt Ideal)) : StableHlo.after hostOps0_2 V (Proc.devRef .tc main_v29)
    = weightWith (V (Proc.devRef .tc main_v14)) (V (Proc.devRef .tc main_v5)) (V (Proc.devRef .tc main_v6)) := by
  dsimp only [hostOps0_2]
  after_results_simp
  all_goals rfl
/-- The edge weights of the symmetric normalisation. -/
theorem w3_wt : W3 m ρ c (Proc.devRef .tc main_v29) = weight (m ((c.tc : Thread nD τ).loc main_arg1)) :=
  (weight_of (W2 m ρ c)).trans (by rw [w2_dinv, w2_src, w2_dst]; rfl)

/-! ## Leaving the first kernel -/

/-- After the first kernel its output array is layer 1's product. -/
theorem w4_h1 : W4 m ρ c (Proc.devRef .tc main_v30) = layer1 (m ((c.tc : Thread nD τ).loc main_arg0)) (m ((c.tc : Thread nD τ).loc main_arg2)) :=
  (W4_arr m ρ c 2).trans ((Region0.final (V3 m ρ) c).trans (by
    show mm (φ₁ := .f32) (φ₂ := .f32) (W3 m ρ c (Proc.devRef .tc main_arg0)) (W3 m ρ c (Proc.devRef .tc main_arg2)) = _
    rw [w3_arg0, w3_arg2]
    rfl))

/-! ## Entering the second kernel -/

set_option maxHeartbeats 1000000 in
/-- The first aggregation, of layer 1's product. -/
theorem w5_a1 : W5 m ρ c (Proc.devRef .tc main_v43) = aggregate (layer1 (m ((c.tc : Thread nD τ).loc main_arg0)) (m ((c.tc : Thread nD τ).loc main_arg2))) (m ((c.tc : Thread nD τ).loc main_arg1)) := by
  read_fold_once
  rw [w4_h1, W4_of_ne m ρ c main_v5 (by decide), W4_of_ne m ρ c main_v6 (by decide), W4_of_ne m ρ c main_v29 (by decide),
    w3_src, w3_dst, w3_wt]
  all_goals rfl
/-- Layer 1's bias as a [1, 64] row. -/
theorem w5_b1 : W5 m ρ c (Proc.devRef .tc main_v44) = shapeCast S1x64 (m ((c.tc : Thread nD τ).loc main_arg3)) shapeCasts_S64_S1x64 := by
  read_fold
  rw [W4_of_ne m ρ c main_arg3 (by decide), w3_arg3]
  all_goals rfl
theorem w5_arg4 : W5 m ρ c (Proc.devRef .tc main_arg4) = (m ((c.tc : Thread nD τ).loc main_arg4)) := by
  read_fold
  rw [W4_of_ne m ρ c main_arg4 (by decide), w3_arg4]
  all_goals rfl
theorem w5_src : W5 m ρ c (Proc.devRef .tc main_v5) = srcs (m ((c.tc : Thread nD τ).loc main_arg1)) := by
  read_fold
  rw [W4_of_ne m ρ c main_v5 (by decide), w3_src]
  all_goals rfl
theorem w5_dst : W5 m ρ c (Proc.devRef .tc main_v6) = dsts (m ((c.tc : Thread nD τ).loc main_arg1)) := by
  read_fold
  rw [W4_of_ne m ρ c main_v6 (by decide), w3_dst]
  all_goals rfl
theorem w5_wt : W5 m ρ c (Proc.devRef .tc main_v29) = weight (m ((c.tc : Thread nD τ).loc main_arg1)) := by
  read_fold
  rw [W4_of_ne m ρ c main_v29 (by decide), w3_wt]
  all_goals rfl
theorem w5_arg5 : W5 m ρ c (Proc.devRef .tc main_arg5) = (m ((c.tc : Thread nD τ).loc main_arg5)) := by
  read_fold
  rw [W4_of_ne m ρ c main_arg5 (by decide), w3_arg5]
  all_goals rfl
theorem w5_arg6 : W5 m ρ c (Proc.devRef .tc main_arg6) = (m ((c.tc : Thread nD τ).loc main_arg6)) := by
  read_fold
  rw [W4_of_ne m ρ c main_arg6 (by decide), w3_arg6]
  all_goals rfl
theorem w5_arg7 : W5 m ρ c (Proc.devRef .tc main_arg7) = (m ((c.tc : Thread nD τ).loc main_arg7)) := by
  read_fold
  rw [W4_of_ne m ρ c main_arg7 (by decide), w3_arg7]
  all_goals rfl
theorem w5_arg8 : W5 m ρ c (Proc.devRef .tc main_arg8) = (m ((c.tc : Thread nD τ).loc main_arg8)) := by
  read_fold
  rw [W4_of_ne m ρ c main_arg8 (by decide), w3_arg8]
  all_goals rfl
theorem w5_arg9 : W5 m ρ c (Proc.devRef .tc main_arg9) = (m ((c.tc : Thread nD τ).loc main_arg9)) := by
  read_fold
  rw [W4_of_ne m ρ c main_arg9 (by decide), w3_arg9]
  all_goals rfl

/-! ## Leaving the second kernel -/

/-- A bias vector reshaped to a row, read along its one row, is the vector lane by lane. -/
theorem row_lanes {k : Nat} (b : FVec Ideal ⟨1, ![k]⟩ .f32) (h : (⟨1, ![k]⟩ : Shape).ShapeCasts ⟨2, ![1, k]⟩) :
    (fun q : Fin k => shapeCast ⟨2, ![1, k]⟩ b h (ix2 (0 : Fin 1) q)) = lanes b :=
  funext fun q => reshape_row_apply b h q

/-- After the second kernel its output array is layer 2's fused map of the first aggregation. -/
theorem w6_h2 : W6 m ρ c (Proc.devRef .tc main_v45) = layer2 (aggregate (layer1 (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg4)) :=
  (W6_arr m ρ c 3).trans ((Region1.final (V5 m ρ) c).trans (by
    show mm (φ₁ := .f32) (φ₂ := .f32) (reluRow (W5 m ρ c (Proc.devRef .tc main_v43))
      (fun q : Fin 64 => W5 m ρ c (Proc.devRef .tc main_v44) (ix2 (0 : Fin 1) q))) (W5 m ρ c (Proc.devRef .tc main_arg4)) = _
    rw [w5_a1, w5_b1, w5_arg4, row_lanes]
    rfl))

/-! ## Entering the third kernel -/

set_option maxHeartbeats 1000000 in
/-- The second aggregation, of layer 2's fused map. -/
theorem w7_a2 : W7 m ρ c (Proc.devRef .tc main_v58) = aggregate (layer2 (aggregate (layer1 (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg4))) (m ((c.tc : Thread nD τ).loc main_arg1)) := by
  read_fold_once
  rw [w6_h2, W6_of_ne m ρ c main_v5 (by decide), W6_of_ne m ρ c main_v6 (by decide), W6_of_ne m ρ c main_v29 (by decide),
    w5_src, w5_dst, w5_wt]
  all_goals rfl
theorem w7_b2 : W7 m ρ c (Proc.devRef .tc main_v59) = shapeCast S1x64 (m ((c.tc : Thread nD τ).loc main_arg5)) shapeCasts_S64_S1x64 := by
  read_fold
  rw [W6_of_ne m ρ c main_arg5 (by decide), w5_arg5]
  all_goals rfl
theorem w7_bl1 : W7 m ρ c (Proc.devRef .tc main_v60) = shapeCast S1x32 (m ((c.tc : Thread nD τ).loc main_arg7)) shapeCasts_S32_S1x32 := by
  read_fold
  rw [W6_of_ne m ρ c main_arg7 (by decide), w5_arg7]
  all_goals rfl
theorem w7_bl2 : W7 m ρ c (Proc.devRef .tc main_v61) = shapeCast S1x2 (m ((c.tc : Thread nD τ).loc main_arg9)) shapeCasts_S2_S1x2 := by
  read_fold
  rw [W6_of_ne m ρ c main_arg9 (by decide), w5_arg9]
  all_goals rfl
theorem w7_arg6 : W7 m ρ c (Proc.devRef .tc main_arg6) = (m ((c.tc : Thread nD τ).loc main_arg6)) := by
  read_fold
  rw [W6_of_ne m ρ c main_arg6 (by decide), w5_arg6]
  all_goals rfl
theorem w7_arg8 : W7 m ρ c (Proc.devRef .tc main_arg8) = (m ((c.tc : Thread nD τ).loc main_arg8)) := by
  read_fold
  rw [W6_of_ne m ρ c main_arg8 (by decide), w5_arg8]
  all_goals rfl

/-! ## Leaving the third kernel, and the softmax -/

/-- After the third kernel its output array holds the logits: the head of the second aggregation. -/
theorem w8_logits : W8 m ρ c (Proc.devRef .tc main_v62) = head (aggregate (layer2 (aggregate (layer1 (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg4))) (m ((c.tc : Thread nD τ).loc main_arg1))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W8_arr m ρ c 6).trans ((Region2.final (V7 m ρ) c).trans (by
    show lin (lin (addRow (W7 m ρ c (Proc.devRef .tc main_v58)) (fun q : Fin 64 => W7 m ρ c (Proc.devRef .tc main_v59) (ix2 (0 : Fin 1) q)))
        (W7 m ρ c (Proc.devRef .tc main_arg6)) (fun q : Fin 32 => W7 m ρ c (Proc.devRef .tc main_v60) (ix2 (0 : Fin 1) q)))
      (W7 m ρ c (Proc.devRef .tc main_arg8)) (fun q : Fin 2 => W7 m ρ c (Proc.devRef .tc main_v61) (ix2 (0 : Fin 1) q)) = _
    rw [w7_a2, w7_b2, w7_arg6, w7_bl1, w7_arg8, w7_bl2, row_lanes, row_lanes, row_lanes]
    rfl))

/-- The last stretch is the softmax over nodes of the third kernel's output. -/
theorem w9_out : W9 m ρ c (Proc.devRef .tc main_v73) = softmaxNodes (W8 m ρ c (Proc.devRef .tc main_v62)) := by
  read_fold
  all_goals rfl

/-- The contents of the result buffer at the last boundary are the network of the arguments. -/
theorem result_eq : W9 m ρ c (Proc.devRef .tc main_v73)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (w9_out m ρ c).trans (by rw [w8_logits]; rfl)

end Cert.KernelIdeal.Fold

end
-- ==== Proof.RefValue.lean ====
/-
  The reference computes the network.

  Its run ends with the result buffer at the composition of its 141 host operations applied to the arguments. In that
  composition the graph operations are the ones GraphOps names, and the dense maps are spelt with the host's product and
  with each bias vector broadcast first to a row and then down the array: a product of an m×k and a k×n array is mm, a
  product plus such a bias is lin, an array plus such a bias is addRow, and the maximum of that with a broadcast zero is
  reluRow. Rewriting the four products and their biases in the composition leaves the network's own definition.
-/
import proofs.«160735_j4501125726898_1_alg».proof.Proof.RefRunP
import proofs.«160735_j4501125726898_1_alg».proof.Proof.Network

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.ShloMosaic.ValueIdx Idealize.SL.Sem
open Cert.GraphOps Cert.LibDenseStages Cert.LibDenseProduct Cert.LibLinearLayer Cert.Network

/-- Layer 1's product on the host. -/
theorem dot1 (x : FVec Ideal S100000x128 .f32) (W : FVec Ideal S128x64 .f32) :
    Host.dotGeneral dot_S100000x128_S128x64_S100000x64_1_0_0_1_n_n none x W = mm x W := dotGeneral_plain_eq none x W

/-- Layer 2's product on the host. -/
theorem dot2 (a : FVec Ideal S100000x64 .f32) (W : FVec Ideal S64x64 .f32) :
    Host.dotGeneral dot_S100000x64_S64x64_S100000x64_1_0_0_1_n_n none a W = mm a W := dotGeneral_plain_eq none a W

/-- Layer 1's bias and rectifier on the host. -/
theorem relu1 (a : FVec Ideal S100000x64 .f32) (b : FVec Ideal S64 .f32) :
    maximumf (addf a (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))
      = reluRow a (lanes b) := host_reluRow bcast_S64_S1x64_1 bcast_S1x64_S100000x64_0_1 bcast_S_S100000x64 a b

/-- Layer 2's bias on the host. -/
theorem bias2 (a : FVec Ideal S100000x64 .f32) (b : FVec Ideal S64 .f32) :
    addf a (broadcastInDim S100000x64 ![0, 1] bcast_S1x64_S100000x64_0_1 (broadcastInDim S1x64 ![1] bcast_S64_S1x64_1 b))
      = addRow a (lanes b) := host_addRow bcast_S64_S1x64_1 bcast_S1x64_S100000x64_0_1 a b

/-- The head's first linear layer on the host. -/
theorem lin1 (a : FVec Ideal S100000x64 .f32) (W : FVec Ideal S64x32 .f32) (b : FVec Ideal S32 .f32) :
    addf (Host.dotGeneral dot_S100000x64_S64x32_S100000x32_1_0_0_1_n_n none a W)
        (broadcastInDim S100000x32 ![0, 1] bcast_S1x32_S100000x32_0_1 (broadcastInDim S1x32 ![1] bcast_S32_S1x32_1 b))
      = lin a W (lanes b) := host_eq_lin _ rfl bcast_S32_S1x32_1 bcast_S1x32_S100000x32_0_1 a W b

/-- The head's second linear layer on the host. -/
theorem lin2 (a : FVec Ideal S100000x32 .f32) (W : FVec Ideal S32x2 .f32) (b : FVec Ideal S2 .f32) :
    addf (Host.dotGeneral dot_S100000x32_S32x2_S100000x2_1_0_0_1_n_n none a W)
        (broadcastInDim S100000x2 ![0, 1] bcast_S1x2_S100000x2_0_1 (broadcastInDim S1x2 ![1] bcast_S2_S1x2_1 b))
      = lin a W (lanes b) := host_eq_lin _ rfl bcast_S2_S1x2_1 bcast_S1x2_S100000x2_0_1 a W b

/-- The reference run's result is the network of the arguments. -/
theorem result_eq (m : (ℓ : Loc nD τ sig) → Buf (Elt Ideal) ℓ) (c : Dev nD) :
    res_main_v109 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold res_main_v109
  rw [dot1, relu1, dot2, bias2, lin1, lin2]
  rfl

end Cert.ReferenceIdeal.RefValue

end
-- ==== Proof.lean ====
/-
  A two-layer graph convolution with a two-layer head and a softmax over nodes: the tiled kernel program against its
  plain reference, over the extended reals.

  Both programs compute, for node features x, an edge list ei and the weights,
    softmax over nodes of ((A(max(A(x·W1) + b1, 0)·W2) + b2)·Wl1 + bl1)·Wl2 + bl2,
  where A gathers each edge's source row, scales it by the symmetric-normalisation weight of the edge (self loops added)
  and scatter-adds it into the target's row. They apply the SAME host operations for A and for the softmax, in the same
  order; they differ only in the three dense maps between them. The reference computes each with whole-array products and
  a bias vector broadcast to the array's shape. The kernel program computes each in a Pallas kernel over 20 tiles of 5000
  rows, with the bias as a [1, k] row, the factors rounded to a narrower format (the identity at the ideal values) and a
  zero accumulator. An entry of x·W, of max(A + b, 0)·W and of ((A + b)·W + b')·W' + b'' depends on one row of the array of
  nodes only, so the tiles' outputs are the rows of the whole-array map (Region0, Region1, Region2 over LibDenseStages); read
  back through the kernel program's boundaries this makes its result the network of its arguments (KernelFold over
  KernelRun), and rewriting the reference's four products and biases makes its result the same function (RefValue).
  No law used needs finiteness: only a regrouping by rows, never a sum reordered or a factor moved across a sum; the
  precondition is not opened. The idealization rewrote nothing, so the kernel program's own text is its idealization.
-/
import proofs.«160735_j4501125726898_1_alg».proof.Defs
import proofs.«160735_j4501125726898_1_alg».proof.Proof.Gen.Kernel
import proofs.«160735_j4501125726898_1_alg».proof.Proof.Gen.Kernel.Skeleton
import proofs.«160735_j4501125726898_1_alg».proof.Proof.Gen.Kernel.Launch
import proofs.«160735_j4501125726898_1_alg».proof.Proof.Gen.Kernel.Points
import proofs.«160735_j4501125726898_1_alg».proof.Proof.Gen.Kernel.Frame
import proofs.«160735_j4501125726898_1_alg».proof.Proof.Gen.KernelIdeal
import proofs.«160735_j4501125726898_1_alg».proof.Proof.Gen.KernelIdeal.Skeleton
import proofs.«160735_j4501125726898_1_alg».proof.Proof.Gen.KernelIdeal.Launch
import proofs.«160735_j4501125726898_1_alg».proof.Proof.Gen.KernelIdeal.Points
import proofs.«160735_j4501125726898_1_alg».proof.Proof.Gen.KernelIdeal.Frame
import proofs.«160735_j4501125726898_1_alg».proof.Proof.Gen.ReferenceIdeal
import proofs.«160735_j4501125726898_1_alg».proof.Proof.Gen.Pre_finite_inputs
import proofs.«160735_j4501125726898_1_alg».proof.Proof.KernelRun
import proofs.«160735_j4501125726898_1_alg».proof.Proof.KernelFold
import proofs.«160735_j4501125726898_1_alg».proof.Proof.RefRunP
import proofs.«160735_j4501125726898_1_alg».proof.Proof.RefValue
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to restate. -/
theorem preserves : Cert.preserves_Kernel_KernelIdeal := trivial

/-- From memories that agree on the arguments both programs end with the result buffer at the network of the arguments. -/
theorem algebraic : Cert.algebraic_KernelIdeal_ReferenceIdeal := by
  intro m ρ m' ρ' _ hagree
  refine ⟨fun c => Cert.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.RefValue.result_eq m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
